-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v52)) (v1 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_v53) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x185376x3 : Shape := ⟨3, ![1, 185376, 3]⟩
abbrev S556122x2 : Shape := ⟨2, ![556122, 2]⟩
abbrev S1x370748x3 : Shape := ⟨3, ![1, 370748, 3]⟩
abbrev S_ : Shape := ⟨0, ![]⟩

class Facts : Prop where
  bcast_S_S1x185376x3 : S_.BroadcastsInDim S1x185376x3 (![] : Fin 0 → Fin S1x185376x3.rank)
  reducesTo_S1x185376x3_S_d0_1_2 : S1x185376x3.ReducesTo [0, 1, 2] S_
  h_S_ : 0 < S_.numel

variable [Facts]

def fn {F : FTy → Type} [FloatOps F] (main_arg0 : FVec F S1x185376x3 .f32) (main_arg1 : IVec S556122x2 32) (main_arg2 : IVec S1x370748x3 32) : IVec S_ 1 :=
  let main_v0 : FVec F S1x185376x3 .f32 := Host.absf main_arg0
  let main_cst : FVec F S_ .f32 := constant S_ .f32 0x7F800000#32
  let main_v1 : FVec F S1x185376x3 .f32 := broadcastInDim S1x185376x3 ![] bcast_S_S1x185376x3 main_cst
  let main_v2 : IVec S1x185376x3 1 := cmpf .olt main_v0 main_v1
  let main_c : IVec S_ 1 := constantI S_ 1 1#1
  let main_v3 : IVec S_ 1 := (fun x v => Host.reduce IntOp.andi x v reducesTo_S1x185376x3_S_d0_1_2 h_S_) main_v2 main_c
  main_v3
-- ==== Kernel.lean ====
abbrev S1x185376x3 : Shape := ⟨3, ![1, 185376, 3]⟩
abbrev S556122x2 : Shape := ⟨2, ![556122, 2]⟩
abbrev S1x370748x3 : Shape := ⟨3, ![1, 370748, 3]⟩
abbrev S185376x3 : Shape := ⟨2, ![185376, 3]⟩
abbrev S556122x1 : Shape := ⟨2, ![556122, 1]⟩
abbrev S556122 : Shape := ⟨1, ![556122]⟩
abbrev S1112244 : Shape := ⟨1, ![1112244]⟩
abbrev S_ : Shape := ⟨0, ![]⟩
abbrev S185376 : Shape := ⟨1, ![185376]⟩
abbrev S1112244x1 : Shape := ⟨2, ![1112244, 1]⟩
abbrev S1112244x3 : Shape := ⟨2, ![1112244, 3]⟩
abbrev S3x185376 : Shape := ⟨2, ![3, 185376]⟩
abbrev S1x185376 : Shape := ⟨2, ![1, 185376]⟩
abbrev S3x196608 : Shape := ⟨2, ![3, 196608]⟩
abbrev S1x196608 : Shape := ⟨2, ![1, 196608]⟩
abbrev S3x16384 : Shape := ⟨2, ![3, 16384]⟩
abbrev S1x16384 : Shape := ⟨2, ![1, 16384]⟩
abbrev S370748x3 : Shape := ⟨2, ![370748, 3]⟩

abbrev nBuf : Space → Nat
  | .hbm => 77
  | .vmem => 16
  | .smem => 0
  | _ => 0

abbrev bufTy : (tb : Table) → Fin (tcTables nBuf tb) → BufTy
  | .hbm, ⟨0, _⟩ => ⟨S1x185376x3, .f32⟩
  | .hbm, ⟨1, _⟩ => ⟨S556122x2, .i32⟩
  | .hbm, ⟨2, _⟩ => ⟨S1x370748x3, .i32⟩
  | .hbm, ⟨3, _⟩ => ⟨S185376x3, .f32⟩
  | .hbm, ⟨4, _⟩ => ⟨S556122x1, .i32⟩
  | .hbm, ⟨5, _⟩ => ⟨S556122, .i32⟩
  | .hbm, ⟨6, _⟩ => ⟨S556122x1, .i32⟩
  | .hbm, ⟨7, _⟩ => ⟨S556122, .i32⟩
  | .hbm, ⟨8, _⟩ => ⟨S1112244, .i32⟩
  | .hbm, ⟨9, _⟩ => ⟨S556122x1, .i32⟩
  | .hbm, ⟨10, _⟩ => ⟨S556122, .i32⟩
  | .hbm, ⟨11, _⟩ => ⟨S556122x1, .i32⟩
  | .hbm, ⟨12, _⟩ => ⟨S556122, .i32⟩
  | .hbm, ⟨13, _⟩ => ⟨S1112244, .i32⟩
  | .hbm, ⟨14, _⟩ => ⟨S_, .f32⟩
  | .hbm, ⟨15, _⟩ => ⟨S1112244, .f32⟩
  | .hbm, ⟨16, _⟩ => ⟨S_, .f32⟩
  | .hbm, ⟨17, _⟩ => ⟨S185376, .f32⟩
  | .hbm, ⟨18, _⟩ => ⟨S1112244x1, .i32⟩
  | .hbm, ⟨19, _⟩ => ⟨S185376, .f32⟩
  | .hbm, ⟨20, _⟩ => ⟨S_, .i32⟩
  | .hbm, ⟨21, _⟩ => ⟨S1112244, .i32⟩
  | .hbm, ⟨22, _⟩ => ⟨S1112244, .i1⟩
  | .hbm, ⟨23, _⟩ => ⟨S_, .i32⟩
  | .hbm, ⟨24, _⟩ => ⟨S1112244, .i32⟩
  | .hbm, ⟨25, _⟩ => ⟨S1112244, .i32⟩
  | .hbm, ⟨26, _⟩ => ⟨S1112244, .i32⟩
  | .hbm, ⟨27, _⟩ => ⟨S1112244x1, .i32⟩
  | .hbm, ⟨28, _⟩ => ⟨S1112244x3, .f32⟩
  | .hbm, ⟨29, _⟩ => ⟨S_, .f32⟩
  | .hbm, ⟨30, _⟩ => ⟨S185376x3, .f32⟩
  | .hbm, ⟨31, _⟩ => ⟨S1112244x1, .i32⟩
  | .hbm, ⟨32, _⟩ => ⟨S185376x3, .f32⟩
  | .hbm, ⟨33, _⟩ => ⟨S3x185376, .f32⟩
  | .hbm, ⟨34, _⟩ => ⟨S3x185376, .f32⟩
  | .hbm, ⟨35, _⟩ => ⟨S1x185376, .f32⟩
  | .hbm, ⟨36, _⟩ => ⟨S_, .i32⟩
  | .hbm, ⟨37, _⟩ => ⟨S_, .f32⟩
  | .hbm, ⟨38, _⟩ => ⟨S3x196608, .f32⟩
  | .hbm, ⟨39, _⟩ => ⟨S_, .i32⟩
  | .hbm, ⟨40, _⟩ => ⟨S_, .f32⟩
  | .hbm, ⟨41, _⟩ => ⟨S3x196608, .f32⟩
  | .hbm, ⟨42, _⟩ => ⟨S_, .i32⟩
  | .hbm, ⟨43, _⟩ => ⟨S_, .f32⟩
  | .hbm, ⟨44, _⟩ => ⟨S1x196608, .f32⟩
  | .hbm, ⟨45, _⟩ => ⟨S3x196608, .f32⟩
  | .hbm, ⟨46, _⟩ => ⟨S3x185376, .f32⟩
  | .hbm, ⟨47, _⟩ => ⟨S185376x3, .f32⟩
  | .hbm, ⟨48, _⟩ => ⟨S_, .i32⟩
  | .hbm, ⟨49, _⟩ => ⟨S1112244, .i32⟩
  | .hbm, ⟨50, _⟩ => ⟨S1112244, .i1⟩
  | .hbm, ⟨51, _⟩ => ⟨S_, .i32⟩
  | .hbm, ⟨52, _⟩ => ⟨S1112244, .i32⟩
  | .hbm, ⟨53, _⟩ => ⟨S1112244, .i32⟩
  | .hbm, ⟨54, _⟩ => ⟨S1112244, .i32⟩
  | .hbm, ⟨55, _⟩ => ⟨S1112244x1, .i32⟩
  | .hbm, ⟨56, _⟩ => ⟨S1112244x3, .f32⟩
  | .hbm, ⟨57, _⟩ => ⟨S_, .f32⟩
  | .hbm, ⟨58, _⟩ => ⟨S185376x3, .f32⟩
  | .hbm, ⟨59, _⟩ => ⟨S1112244x1, .i32⟩
  | .hbm, ⟨60, _⟩ => ⟨S185376x3, .f32⟩
  | .hbm, ⟨61, _⟩ => ⟨S3x185376, .f32⟩
  | .hbm, ⟨62, _⟩ => ⟨S3x185376, .f32⟩
  | .hbm, ⟨63, _⟩ => ⟨S1x185376, .f32⟩
  | .hbm, ⟨64, _⟩ => ⟨S_, .i32⟩
  | .hbm, ⟨65, _⟩ => ⟨S_, .f32⟩
  | .hbm, ⟨66, _⟩ => ⟨S3x196608, .f32⟩
  | .hbm, ⟨67, _⟩ => ⟨S_, .i32⟩
  | .hbm, ⟨68, _⟩ => ⟨S_, .f32⟩
  | .hbm, ⟨69, _⟩ => ⟨S3x196608, .f32⟩
  | .hbm, ⟨70, _⟩ => ⟨S_, .i32⟩
  | .hbm, ⟨71, _⟩ => ⟨S_, .f32⟩
  | .hbm, ⟨72, _⟩ => ⟨S1x196608, .f32⟩
  | .hbm, ⟨73, _⟩ => ⟨S3x196608, .f32⟩
  | .hbm, ⟨74, _⟩ => ⟨S3x185376, .f32⟩
  | .hbm, ⟨75, _⟩ => ⟨S185376x3, .f32⟩
  | .hbm, ⟨76, _⟩ => ⟨S370748x3, .i32⟩
  | .local _ .vmem, ⟨0, _⟩ => ⟨S3x16384, .f32⟩
  | .local _ .vmem, ⟨1, _⟩ => ⟨S3x16384, .f32⟩
  | .local _ .vmem, ⟨2, _⟩ => ⟨S3x16384, .f32⟩
  | .local _ .vmem, ⟨3, _⟩ => ⟨S3x16384, .f32⟩
  | .local _ .vmem, ⟨4, _⟩ => ⟨S1x16384, .f32⟩
  | .local _ .vmem, ⟨5, _⟩ => ⟨S1x16384, .f32⟩
  | .local _ .vmem, ⟨6, _⟩ => ⟨S3x16384, .f32⟩
  | .local _ .vmem, ⟨7, _⟩ => ⟨S3x16384, .f32⟩
  | .local _ .vmem, ⟨8, _⟩ => ⟨S3x16384, .f32⟩
  | .local _ .vmem, ⟨9, _⟩ => ⟨S3x16384, .f32⟩
  | .local _ .vmem, ⟨10, _⟩ => ⟨S3x16384, .f32⟩
  | .local _ .vmem, ⟨11, _⟩ => ⟨S3x16384, .f32⟩
  | .local _ .vmem, ⟨12, _⟩ => ⟨S1x16384, .f32⟩
  | .local _ .vmem, ⟨13, _⟩ => ⟨S1x16384, .f32⟩
  | .local _ .vmem, ⟨14, _⟩ => ⟨S3x16384, .f32⟩
  | .local _ .vmem, ⟨15, _⟩ => ⟨S3x16384, .f32⟩
  | _, _ => ⟨S1x185376x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_3 : Ref sig .tc := ⟨.hbm, 36, rfl⟩
abbrev main_call0_v0 : Ref sig .tc := ⟨.hbm, 37, rfl⟩
abbrev main_v28 : Ref sig .tc := ⟨.hbm, 38, rfl⟩
abbrev main_c_4 : Ref sig .tc := ⟨.hbm, 39, rfl⟩
abbrev main_call1_v0 : Ref sig .tc := ⟨.hbm, 40, rfl⟩
abbrev main_v29 : Ref sig .tc := ⟨.hbm, 41, rfl⟩
abbrev main_c_5 : Ref sig .tc := ⟨.hbm, 42, rfl⟩
abbrev main_call2_v0 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_c_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_9 : Ref sig .tc := ⟨.hbm, 64, rfl⟩
abbrev main_call3_v0 : Ref sig .tc := ⟨.hbm, 65, rfl⟩
abbrev main_v47 : Ref sig .tc := ⟨.hbm, 66, rfl⟩
abbrev main_c_10 : Ref sig .tc := ⟨.hbm, 67, rfl⟩
abbrev main_call4_v0 : Ref sig .tc := ⟨.hbm, 68, rfl⟩
abbrev main_v48 : Ref sig .tc := ⟨.hbm, 69, rfl⟩
abbrev main_c_11 : Ref sig .tc := ⟨.hbm, 70, rfl⟩
abbrev main_call5_v0 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![12], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S3x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3x16384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x16384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S3x16384 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S1x185376x3_S185376x3 : S1x185376x3.ShapeCasts S185376x3
  slices_S556122x2_S556122x1_0_0 : S556122x2.Slices ![0, 0] S556122x1
  shapeCasts_S556122x1_S556122 : S556122x1.ShapeCasts S556122
  slices_S556122x2_S556122x1_0_1 : S556122x2.Slices ![0, 1] S556122x1
  concatenates_S556122_S556122_S1112244_d0 : Shape.Concatenates [S556122, S556122] S1112244 0
  bcast_S_S1112244 : S_.BroadcastsInDim S1112244 (![] : Fin 0 → Fin S1112244.rank)
  bcast_S_S185376 : S_.BroadcastsInDim S185376 (![] : Fin 0 → Fin S185376.rank)
  bcast_S1112244_S1112244x1_0 : S1112244.BroadcastsInDim S1112244x1 (![0] : Fin 1 → Fin S1112244x1.rank)
  bcast_S_S185376x3 : S_.BroadcastsInDim S185376x3 (![] : Fin 0 → Fin S185376x3.rank)
  transposes_S185376x3_S3x185376_1_0 : S185376x3.Transposes [1, 0] S3x185376
  shapeCasts_S185376_S1x185376 : S185376.ShapeCasts S1x185376
  pads_S3x185376_S3x196608_000_0112320 : S3x185376.Pads (![0, 0] : Fin 2 → Nat) ![0, 11232] ![0, 0] S3x196608
  h_S_ : 0 < S_.numel
  pads_S1x185376_S1x196608_000_0112320 : S1x185376.Pads (![0, 0] : Fin 2 → Nat) ![0, 11232] ![0, 0] S1x196608
  inb_S3x16384_S3x16384_0_0 : ∀ a, (![0, 0] : Fin 2 → Nat) a + S3x16384.size a ≤ S3x16384.size a
  h_S3x16384 : 0 < S3x16384.numel
  shapeCasts_S3x16384_S3x16384 : S3x16384.ShapeCasts S3x16384
  inb_S1x16384_S1x16384_0_0 : ∀ a, (![0, 0] : Fin 2 → Nat) a + S1x16384.size a ≤ S1x16384.size a
  h_S1x16384 : 0 < S1x16384.numel
  shapeCasts_S1x16384_S1x16384 : S1x16384.ShapeCasts S1x16384
  broadcasts_S1x16384_S3x16384 : S1x16384.Broadcasts S3x16384
  slices_S3x196608_S3x185376_0_0 : S3x196608.Slices ![0, 0] S3x185376
  transposes_S3x185376_S185376x3_1_0 : S3x185376.Transposes [1, 0] S185376x3
  shapeCasts_S1x370748x3_S370748x3 : S1x370748x3.ShapeCasts S370748x3
  scatter_S185376_S1112244x1_S1112244_n_0_0_1_wf : ScatterDims.WF S185376 S1112244x1 S1112244 [] [0] [0] 1
  gather_S185376x3_S1112244x1_S1112244x3_1_0_n_n_0_1_13_wf : GatherDims.WF S185376x3 S1112244x1 S1112244x3 [1] [0] [] [0] [] 1 ![1, 3]
  scatter_S185376x3_S1112244x1_S1112244x3_1_0_0_1_wf : ScatterDims.WF S185376x3 S1112244x1 S1112244x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x16384.size a ≤ S3x196608.size a
  hwx0_0 : ∀ i : grid0.Coords, EltTy.bits .f32 = 32 ∨ (Rect.block (s := S3x196608) S3x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x16384.size a ≤ S3x196608.size a
  hwx0_1 : ∀ i : grid0.Coords, EltTy.bits .f32 = 32 ∨ (Rect.block (s := S3x196608) S3x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16384.size a ≤ S1x196608.size a
  hwx0_2 : ∀ i : grid0.Coords, EltTy.bits .f32 = 32 ∨ (Rect.block (s := S1x196608) S1x16384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3x16384.size a ≤ S3x196608.size a
  hwx0_3 : ∀ i : grid0.Coords, EltTy.bits .f32 = 32 ∨ (Rect.block (s := S3x196608) S3x16384.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3x16384.size a ≤ S3x196608.size a
  hwx1_0 : ∀ i : grid1.Coords, EltTy.bits .f32 = 32 ∨ (Rect.block (s := S3x196608) S3x16384.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3x16384.size a ≤ S3x196608.size a
  hwx1_1 : ∀ i : grid1.Coords, EltTy.bits .f32 = 32 ∨ (Rect.block (s := S3x196608) S3x16384.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x16384.size a ≤ S1x196608.size a
  hwx1_2 : ∀ i : grid1.Coords, EltTy.bits .f32 = 32 ∨ (Rect.block (s := S1x196608) S1x16384.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S3x16384.size a ≤ S3x196608.size a
  hwx1_3 : ∀ i : grid1.Coords, EltTy.bits .f32 = 32 ∨ (Rect.block (s := S3x196608) S3x16384.size (cc1_transform_3 i) (hinb1_3 i)).WholeWords (EltTy.packing .f32)

variable [Facts₀]

def scatter_S185376_S1112244x1_S1112244_n_0_0_1 : ScatterDims S185376 S1112244x1 S1112244 where
  updateWindowDims := []
  insertedWindowDims := [0]
  scatterDimsToOperandDims := [0]
  indexVectorDim := 1
  wf := scatter_S185376_S1112244x1_S1112244_n_0_0_1_wf
def gather_S185376x3_S1112244x1_S1112244x3_1_0_n_n_0_1_13 : GatherDims S185376x3 S1112244x1 S1112244x3 where
  offsetDims := [1]
  collapsedSliceDims := [0]
  operandBatchingDims := []
  startIndicesBatchingDims := []
  startIndexMap := [0]
  indexVectorDim := 1
  sliceSizes := ![1, 3]
  wf := gather_S185376x3_S1112244x1_S1112244x3_1_0_n_n_0_1_13_wf
def scatter_S185376x3_S1112244x1_S1112244x3_1_0_0_1 : ScatterDims S185376x3 S1112244x1 S1112244x3 where
  updateWindowDims := [1]
  insertedWindowDims := [0]
  scatterDimsToOperandDims := [0]
  indexVectorDim := 1
  wf := scatter_S185376x3_S1112244x1_S1112244x3_1_0_0_1_wf

abbrev win0_0 : Pipeline.Window sig grid0 :=
  Pipeline.Window.ofSpec (Memref.whole main_v28) S3x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S3x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x16384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v31) S3x16384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v47) S3x16384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S3x16384.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v49) S1x16384.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v50) S3x16384.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1x185376x3 : Shape := ⟨3, ![1, 185376, 3]⟩
abbrev S556122x2 : Shape := ⟨2, ![556122, 2]⟩
abbrev S1x370748x3 : Shape := ⟨3, ![1, 370748, 3]⟩
abbrev S556122x1 : Shape := ⟨2, ![556122, 1]⟩
abbrev S556122 : Shape := ⟨1, ![556122]⟩
abbrev S1112244 : Shape := ⟨1, ![1112244]⟩
abbrev S185376x3 : Shape := ⟨2, ![185376, 3]⟩
abbrev S_ : Shape := ⟨0, ![]⟩
abbrev S185376 : Shape := ⟨1, ![185376]⟩
abbrev S1112244x1 : Shape := ⟨2, ![1112244, 1]⟩
abbrev S1112244x3 : Shape := ⟨2, ![1112244, 3]⟩
abbrev S185376x1 : Shape := ⟨2, ![185376, 1]⟩
abbrev S370748x3 : Shape := ⟨2, ![370748, 3]⟩

abbrev nBuf : Space → Nat
  | .hbm => 69
  | .vmem => 0
  | .smem => 0
  | _ => 0

abbrev bufTy : (tb : Table) → Fin (tcTables nBuf tb) → BufTy
  | .hbm, ⟨0, _⟩ => ⟨S1x185376x3, .f32⟩
  | .hbm, ⟨1, _⟩ => ⟨S556122x2, .i32⟩
  | .hbm, ⟨2, _⟩ => ⟨S1x370748x3, .i32⟩
  | .hbm, ⟨3, _⟩ => ⟨S556122x1, .i32⟩
  | .hbm, ⟨4, _⟩ => ⟨S556122, .i32⟩
  | .hbm, ⟨5, _⟩ => ⟨S556122x1, .i32⟩
  | .hbm, ⟨6, _⟩ => ⟨S556122, .i32⟩
  | .hbm, ⟨7, _⟩ => ⟨S1112244, .i32⟩
  | .hbm, ⟨8, _⟩ => ⟨S556122x1, .i32⟩
  | .hbm, ⟨9, _⟩ => ⟨S556122, .i32⟩
  | .hbm, ⟨10, _⟩ => ⟨S556122x1, .i32⟩
  | .hbm, ⟨11, _⟩ => ⟨S556122, .i32⟩
  | .hbm, ⟨12, _⟩ => ⟨S1112244, .i32⟩
  | .hbm, ⟨13, _⟩ => ⟨S185376x3, .f32⟩
  | .hbm, ⟨14, _⟩ => ⟨S_, .f32⟩
  | .hbm, ⟨15, _⟩ => ⟨S1112244, .f32⟩
  | .hbm, ⟨16, _⟩ => ⟨S_, .f32⟩
  | .hbm, ⟨17, _⟩ => ⟨S185376, .f32⟩
  | .hbm, ⟨18, _⟩ => ⟨S1112244x1, .i32⟩
  | .hbm, ⟨19, _⟩ => ⟨S185376, .f32⟩
  | .hbm, ⟨20, _⟩ => ⟨S_, .f32⟩
  | .hbm, ⟨21, _⟩ => ⟨S185376, .f32⟩
  | .hbm, ⟨22, _⟩ => ⟨S185376, .f32⟩
  | .hbm, ⟨23, _⟩ => ⟨S_, .f32⟩
  | .hbm, ⟨24, _⟩ => ⟨S185376, .f32⟩
  | .hbm, ⟨25, _⟩ => ⟨S185376, .f32⟩
  | .hbm, ⟨26, _⟩ => ⟨S_, .i32⟩
  | .hbm, ⟨27, _⟩ => ⟨S1112244, .i32⟩
  | .hbm, ⟨28, _⟩ => ⟨S1112244, .i1⟩
  | .hbm, ⟨29, _⟩ => ⟨S_, .i32⟩
  | .hbm, ⟨30, _⟩ => ⟨S1112244, .i32⟩
  | .hbm, ⟨31, _⟩ => ⟨S1112244, .i32⟩
  | .hbm, ⟨32, _⟩ => ⟨S1112244, .i32⟩
  | .hbm, ⟨33, _⟩ => ⟨S1112244x1, .i32⟩
  | .hbm, ⟨34, _⟩ => ⟨S1112244x3, .f32⟩
  | .hbm, ⟨35, _⟩ => ⟨S_, .f32⟩
  | .hbm, ⟨36, _⟩ => ⟨S185376x3, .f32⟩
  | .hbm, ⟨37, _⟩ => ⟨S1112244x1, .i32⟩
  | .hbm, ⟨38, _⟩ => ⟨S185376x3, .f32⟩
  | .hbm, ⟨39, _⟩ => ⟨S185376x1, .f32⟩
  | .hbm, ⟨40, _⟩ => ⟨S185376x3, .f32⟩
  | .hbm, ⟨41, _⟩ => ⟨S185376x3, .f32⟩
  | .hbm, ⟨42, _⟩ => ⟨S185376x3, .f32⟩
  | .hbm, ⟨43, _⟩ => ⟨S_, .f32⟩
  | .hbm, ⟨44, _⟩ => ⟨S185376x3, .f32⟩
  | .hbm, ⟨45, _⟩ => ⟨S185376x3, .f32⟩
  | .hbm, ⟨46, _⟩ => ⟨S185376x3, .f32⟩
  | .hbm, ⟨47, _⟩ => ⟨S_, .i32⟩
  | .hbm, ⟨48, _⟩ => ⟨S1112244, .i32⟩
  | .hbm, ⟨49, _⟩ => ⟨S1112244, .i1⟩
  | .hbm, ⟨50, _⟩ => ⟨S_, .i32⟩
  | .hbm, ⟨51, _⟩ => ⟨S1112244, .i32⟩
  | .hbm, ⟨52, _⟩ => ⟨S1112244, .i32⟩
  | .hbm, ⟨53, _⟩ => ⟨S1112244, .i32⟩
  | .hbm, ⟨54, _⟩ => ⟨S1112244x1, .i32⟩
  | .hbm, ⟨55, _⟩ => ⟨S1112244x3, .f32⟩
  | .hbm, ⟨56, _⟩ => ⟨S_, .f32⟩
  | .hbm, ⟨57, _⟩ => ⟨S185376x3, .f32⟩
  | .hbm, ⟨58, _⟩ => ⟨S1112244x1, .i32⟩
  | .hbm, ⟨59, _⟩ => ⟨S185376x3, .f32⟩
  | .hbm, ⟨60, _⟩ => ⟨S185376x1, .f32⟩
  | .hbm, ⟨61, _⟩ => ⟨S185376x3, .f32⟩
  | .hbm, ⟨62, _⟩ => ⟨S185376x3, .f32⟩
  | .hbm, ⟨63, _⟩ => ⟨S185376x3, .f32⟩
  | .hbm, ⟨64, _⟩ => ⟨S_, .f32⟩
  | .hbm, ⟨65, _⟩ => ⟨S185376x3, .f32⟩
  | .hbm, ⟨66, _⟩ => ⟨S185376x3, .f32⟩
  | .hbm, ⟨67, _⟩ => ⟨S185376x3, .f32⟩
  | .hbm, ⟨68, _⟩ => ⟨S370748x3, .i32⟩
  | _, _ => ⟨S1x185376x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_c : Ref sig .tc := ⟨.hbm, 26, rfl⟩
abbrev main_v19 : Ref sig .tc := ⟨.hbm, 27, rfl⟩
abbrev main_v20 : Ref sig .tc := ⟨.hbm, 28, rfl⟩
abbrev main_c_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c_6 : Ref sig .tc := ⟨.hbm, 47, rfl⟩
abbrev main_v36 : Ref sig .tc := ⟨.hbm, 48, rfl⟩
abbrev main_v37 : Ref sig .tc := ⟨.hbm, 49, rfl⟩
abbrev main_c_7 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_8 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_9 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩

abbrev nD : Nat := 1
abbrev τ : Topo := Topo.v7x

variable {F : FTy → Type} [FloatOps F]

class Facts₀ : Prop where
  slices_S556122x2_S556122x1_0_0 : S556122x2.Slices ![0, 0] S556122x1
  shapeCasts_S556122x1_S556122 : S556122x1.ShapeCasts S556122
  slices_S556122x2_S556122x1_0_1 : S556122x2.Slices ![0, 1] S556122x1
  concatenates_S556122_S556122_S1112244_d0 : Shape.Concatenates [S556122, S556122] S1112244 0
  shapeCasts_S1x185376x3_S185376x3 : S1x185376x3.ShapeCasts S185376x3
  bcast_S_S1112244 : S_.BroadcastsInDim S1112244 (![] : Fin 0 → Fin S1112244.rank)
  bcast_S_S185376 : S_.BroadcastsInDim S185376 (![] : Fin 0 → Fin S185376.rank)
  bcast_S1112244_S1112244x1_0 : S1112244.BroadcastsInDim S1112244x1 (![0] : Fin 1 → Fin S1112244x1.rank)
  bcast_S_S185376x3 : S_.BroadcastsInDim S185376x3 (![] : Fin 0 → Fin S185376x3.rank)
  bcast_S185376_S185376x1_0 : S185376.BroadcastsInDim S185376x1 (![0] : Fin 1 → Fin S185376x1.rank)
  bcast_S185376x1_S185376x3_0_1 : S185376x1.BroadcastsInDim S185376x3 (![0, 1] : Fin 2 → Fin S185376x3.rank)
  shapeCasts_S1x370748x3_S370748x3 : S1x370748x3.ShapeCasts S370748x3
  scatter_S185376_S1112244x1_S1112244_n_0_0_1_wf : ScatterDims.WF S185376 S1112244x1 S1112244 [] [0] [0] 1
  gather_S185376x3_S1112244x1_S1112244x3_1_0_n_n_0_1_13_wf : GatherDims.WF S185376x3 S1112244x1 S1112244x3 [1] [0] [] [0] [] 1 ![1, 3]
  scatter_S185376x3_S1112244x1_S1112244x3_1_0_0_1_wf : ScatterDims.WF S185376x3 S1112244x1 S1112244x3 [1] [0] [0] 1

variable [Facts₀]

def scatter_S185376_S1112244x1_S1112244_n_0_0_1 : ScatterDims S185376 S1112244x1 S1112244 where
  updateWindowDims := []
  insertedWindowDims := [0]
  scatterDimsToOperandDims := [0]
  indexVectorDim := 1
  wf := scatter_S185376_S1112244x1_S1112244_n_0_0_1_wf
def gather_S185376x3_S1112244x1_S1112244x3_1_0_n_n_0_1_13 : GatherDims S185376x3 S1112244x1 S1112244x3 where
  offsetDims := [1]
  collapsedSliceDims := [0]
  operandBatchingDims := []
  startIndicesBatchingDims := []
  startIndexMap := [0]
  indexVectorDim := 1
  sliceSizes := ![1, 3]
  wf := gather_S185376x3_S1112244x1_S1112244x3_1_0_n_n_0_1_13_wf
def scatter_S185376x3_S1112244x1_S1112244x3_1_0_0_1 : ScatterDims S185376x3 S1112244x1 S1112244x3 where
  updateWindowDims := [1]
  insertedWindowDims := [0]
  scatterDimsToOperandDims := [0]
  indexVectorDim := 1
  wf := scatter_S185376x3_S1112244x1_S1112244x3_1_0_0_1_wf

class Facts : Prop extends Facts₀ where

variable [Facts]
-- ==== Proof.KernelRun.lean ====
/-
  The whole program of the smoothing kernel, run: host operations, the first update pass as a pipelined region,
  host operations, the second pass, host operations. Every weakly fair execution terminates without a fault, and
  every buffer that is not a staging buffer then holds what the fold of the host operations and of the two
  regions' write-backs over the launch memory leaves in it (`W15`): in particular the two result buffers do.
-/
import proofs.«134193_j9912784519488_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with every buffer outside the staging buffers read at the end of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h => h)

/-- A result buffer of the program, read after the run. -/
theorem read_result {r : PUnit × MemSt nD τ sig (Elt F)}
    (h : ∀ c : Dev nD, ∀ b ∈ Pipeline.ucRefs τ sig, r.2.mem (((c : Thread nD τ)).1, b) = W15 m ρ c b)
    (c : Dev nD) (b : Ref sig .tc) (hb : ¬ (Proc.devRef .tc b : DevRef τ sig).isScoped) :
    r.2.mem ((c.tc : Thread nD τ).loc b) = W15 m ρ c (Proc.devRef .tc b) :=
  h c _ (mem_uc b hb)

end Cert.KernelIdeal.Whole

end
-- ==== Proof.LapSpec.lean ====
/-
  One pass of uniform-Laplacian smoothing, entry by entry.

  A mesh has V = 185376 vertices with three coordinates each. One pass replaces the position x of a vertex by
  x + 1 * (nbr * (1 / max deg 1) - x), where nbr is the sum of its neighbours' positions and deg the number of
  its neighbours: every coordinate of every vertex is updated from that vertex's own data only (`upd`).

  The update may be carried out with the vertex axis laid along the lanes: the [V, 3] arrays transposed to
  [3, V], the degree vector cast to one row [1, V], all three padded on the right to 196608 = 12 * 16384 lanes,
  updated lane by lane (`laneUpd`, the degree row shared by the three coordinate rows), cut back to the first V
  lanes and transposed again. Read at vertex v and coordinate ch the result is `upd` of the three operands at
  that vertex (`step_apply`): the lanes v < V lie inside the operands, so the padding value is never read.
-/
import Idealize.ShloMosaic.Lib.ValueIdx
import Idealize.ShloMosaic.Lib.ValueLayout
import Idealize.ShloMosaic.Lib.KernelVsHost
import Idealize.ShloMosaic.PureOps.Ideal

noncomputable section

namespace Cert.LapSmooth

open Idealize.ShloMosaic Idealize.ShloMosaic.ValueIdx

/-- vertices by coordinates -/
abbrev SV3 : Shape := ⟨2, ![185376, 3]⟩
/-- one number per vertex -/
abbrev SV : Shape := ⟨1, ![185376]⟩
/-- coordinates by vertices -/
abbrev S3V : Shape := ⟨2, ![3, 185376]⟩
/-- one row of vertices -/
abbrev S1V : Shape := ⟨2, ![1, 185376]⟩
/-- coordinates by padded lanes -/
abbrev S3P : Shape := ⟨2, ![3, 196608]⟩
/-- one row of padded lanes -/
abbrev S1P : Shape := ⟨2, ![1, 196608]⟩
/-- a scalar -/
abbrev S0 : Shape := ⟨0, ![]⟩

/-- The float literal 1.0 as an extended real. -/
def one : EReal := Ideal.ofBits .f32 0x3F800000#32

/-- One coordinate of one vertex after a pass: x + 1 * (nbr * (1 / max deg 1) - x). -/
def upd (x n d : EReal) : EReal := x + one * (n * Ideal.div one (max d one) - x)

/-- The pass in the lane layout: every lane of every coordinate row updated from the same lane of the position,
    neighbour-sum and (single-row) degree arrays. -/
def laneUpd (a b : S3P.Idx → EReal) (d : S1P.Idx → EReal) : S3P.Idx → EReal :=
  fun i => upd (a i) (b i) (d (ix2 (0 : Fin 1) (i 1)))

theorem laneUpd_apply (a b : S3P.Idx → EReal) (d : S1P.Idx → EReal) (r : Fin 3) (l : Fin 196608) :
    laneUpd a b d (ix2 r l) = upd (a (ix2 r l)) (b (ix2 r l)) (d (ix2 (0 : Fin 1) l)) := rfl

/-- A [3, V] array padded on the right to 196608 lanes, read at a lane below V, is the array there. -/
theorem pad3_apply (y : S3V.Idx → EReal) (z : S0.Idx → EReal)
    (hp : S3V.Pads ![0, 0] ![0, 11232] ![0, 0] S3P) (hu : 0 < S0.numel)
    (r : Fin 3) (v : Fin 185376) (l : Fin 196608) (hl : l.val = v.val) :
    pad S3P ![0, 0] ![0, 11232] ![0, 0] y z hp hu (ix2 r l) = y (ix2 r v) :=
  pad_apply_of_inside _ _ _ y z hp hu (ix2 r l) (ix2 r v) (fun a => match a with
    | ⟨0, _⟩ => by show r.val = 0 + r.val * (0 + 1); omega
    | ⟨1, _⟩ => by show l.val = 0 + v.val * (0 + 1); omega)

/-- A one-row [1, V] array padded on the right to 196608 lanes, read at a lane below V, is the array there. -/
theorem pad1_apply (y : S1V.Idx → EReal) (z : S0.Idx → EReal)
    (hp : S1V.Pads ![0, 0] ![0, 11232] ![0, 0] S1P) (hu : 0 < S0.numel)
    (r : Fin 1) (v : Fin 185376) (l : Fin 196608) (hl : l.val = v.val) :
    pad S1P ![0, 0] ![0, 11232] ![0, 0] y z hp hu (ix2 r l) = y (ix2 r v) :=
  pad_apply_of_inside _ _ _ y z hp hu (ix2 r l) (ix2 r v) (fun a => match a with
    | ⟨0, _⟩ => by show r.val = 0 + r.val * (0 + 1); omega
    | ⟨1, _⟩ => by show l.val = 0 + v.val * (0 + 1); omega)

/-- The pass carried out in the lane layout and brought back, read at vertex `v`, coordinate `ch`:
    `upd` of the position, the neighbour sum and the degree at that vertex. -/
theorem step_apply (x n : SV3.Idx → EReal) (d : SV.Idx → EReal) (z z' z'' : S0.Idx → EReal)
    (ht : SV3.Transposes [1, 0] S3V) (hp3 : S3V.Pads ![0, 0] ![0, 11232] ![0, 0] S3P)
    (hp1 : S1V.Pads ![0, 0] ![0, 11232] ![0, 0] S1P) (hu : 0 < S0.numel) (hc : SV.ShapeCasts S1V)
    (hs : S3P.Slices ![0, 0] S3V) (ht' : S3V.Transposes [1, 0] SV3)
    (v : Fin 185376) (ch : Fin 3) :
    transpose SV3 [1, 0] (extractStridedSlice S3V ![0, 0]
      (laneUpd (pad S3P ![0, 0] ![0, 11232] ![0, 0] (transpose S3V [1, 0] x ht) z hp3 hu)
               (pad S3P ![0, 0] ![0, 11232] ![0, 0] (transpose S3V [1, 0] n ht) z' hp3 hu)
               (pad S1P ![0, 0] ![0, 11232] ![0, 0] (shapeCast S1V d hc) z'' hp1 hu)) hs) ht' (ix2 v ch)
    = upd (x (ix2 v ch)) (n (ix2 v ch)) (d (ix1 v)) := by
  have hl : v.val < 196608 := by omega
  rw [transpose_ix2_apply _ ht' v ch,
    slice2_axis1_apply 0 _ hs ch v (⟨v.val, hl⟩ : Fin 196608) (by show v.val = 0 + v.val; omega),
    laneUpd_apply,
    pad3_apply _ z hp3 hu ch v ⟨v.val, hl⟩ rfl, pad3_apply _ z' hp3 hu ch v ⟨v.val, hl⟩ rfl,
    pad1_apply _ z'' hp1 hu 0 v ⟨v.val, hl⟩ rfl,
    transpose_ix2_apply x ht ch v, transpose_ix2_apply n ht ch v, shapeCast_a_1a_apply d hc 0 v]

end Cert.LapSmooth

end
-- ==== Proof.HostStretch.lean ====
/-
  The host operations around the two update passes, read back.

  From the edge list [E, 2] the program builds the directed edges' sources `src` (first column, then second) and
  destinations `dst` (second column, then first), the degree `deg` of every vertex (a scatter-add of ones at the
  sources) and, from a position array x, the neighbour sums `nbr x` (x gathered at the destinations — a negative
  index counted from the end — and scatter-added at the sources). Before each pass it lays the positions, the
  neighbour sums and the degrees along the lanes (`padT`, `padD`); after it, it cuts the lanes back and
  transposes (`unlane`). A pass as a whole is `pass x n g = unlane (laneUpd (padT x) (padT n) (padD g))`, and at
  vertex v, coordinate ch it is the update of that entry (`pass_apply`).

  The three stretches of host operations (before the first pass, between the passes, after the second) are read
  back from an arbitrary valuation of the buffers at their entry.
-/
import proofs.«134193_j9912784519488_1_alg».proof.Proof.Gen.KernelIdeal.Launch
import proofs.«134193_j9912784519488_1_alg».proof.Proof.LapSpec
import Idealize.ShloMosaic.Lib.StableHlo.Run

set_option maxRecDepth 16384

noncomputable section

namespace Cert.KernelIdeal.HostSide

open Cert.KernelIdeal Cert.KernelIdeal.Gen Cert.LapSmooth
open Idealize.ShloMosaic Idealize.ShloMosaic.TcCoe Idealize.ShloMosaic.StableHlo Idealize.ShloMosaic.ValueIdx Idealize.SL.Sem

/-- one word per directed edge -/
abbrev PerEdge := (⟨S1112244, .i32⟩ : BufTy).Contents (Elt Ideal)
/-- vertices by coordinates -/
abbrev Pos := (⟨S185376x3, .f32⟩ : BufTy).Contents (Elt Ideal)
/-- one number per vertex -/
abbrev PerV := (⟨S185376, .f32⟩ : BufTy).Contents (Elt Ideal)
/-- the undirected edge list -/
abbrev Edges := (⟨S556122x2, .i32⟩ : BufTy).Contents (Elt Ideal)
/-- coordinates by padded lanes -/
abbrev Lanes3 := (⟨S3x196608, .f32⟩ : BufTy).Contents (Elt Ideal)
/-- one row of padded lanes -/
abbrev Lanes1 := (⟨S1x196608, .f32⟩ : BufTy).Contents (Elt Ideal)

/-- The directed edges' sources: the edge list's first column, then its second. -/
def src (e : Edges) : PerEdge :=
  concatenate S1112244 0 [⟨S556122, shapeCast S556122 (extractStridedSlice S556122x1 ![0, 0] e slices_S556122x2_S556122x1_0_0) shapeCasts_S556122x1_S556122⟩,
    ⟨S556122, shapeCast S556122 (extractStridedSlice S556122x1 ![0, 1] e slices_S556122x2_S556122x1_0_1) shapeCasts_S556122x1_S556122⟩] concatenates_S556122_S556122_S1112244_d0

/-- The directed edges' destinations: the second column, then the first. -/
def dst (e : Edges) : PerEdge :=
  concatenate S1112244 0 [⟨S556122, shapeCast S556122 (extractStridedSlice S556122x1 ![0, 1] e slices_S556122x2_S556122x1_0_1) shapeCasts_S556122x1_S556122⟩,
    ⟨S556122, shapeCast S556122 (extractStridedSlice S556122x1 ![0, 0] e slices_S556122x2_S556122x1_0_0) shapeCasts_S556122x1_S556122⟩] concatenates_S556122_S556122_S1112244_d0

/-- Every vertex's degree: ones scatter-added at the sources. -/
def deg (e : Edges) : PerV :=
  Host.scatterAdd scatter_S185376_S1112244x1_S1112244_n_0_0_1 (broadcastInDim S185376 ![] bcast_S_S185376 (constant (F := Ideal) S_ .f32 0x00000000#32))
    (broadcastInDim S1112244x1 ![0] bcast_S1112244_S1112244x1_0 (src e)) (broadcastInDim S1112244 ![] bcast_S_S1112244 (constant (F := Ideal) S_ .f32 0x3F800000#32))

/-- The neighbour sums of a position array: its rows gathered at the destinations (a negative index counted from
    the end), scatter-added at the sources. -/
def nbr (x : Pos) (s d : PerEdge) : Pos :=
  Host.scatterAdd scatter_S185376x3_S1112244x1_S1112244x3_1_0_0_1 (broadcastInDim S185376x3 ![] bcast_S_S185376x3 (constant (F := Ideal) S_ .f32 0x00000000#32))
    (broadcastInDim S1112244x1 ![0] bcast_S1112244_S1112244x1_0 s)
    (Host.gather gather_S185376x3_S1112244x1_S1112244x3_1_0_n_n_0_1_13 x (broadcastInDim S1112244x1 ![0] bcast_S1112244_S1112244x1_0
      (select (cmpi .slt d (broadcastInDim S1112244 ![] bcast_S_S1112244 (constantI S_ 32 0#32)))
        (addi d (broadcastInDim S1112244 ![] bcast_S_S1112244 (constantI S_ 32 185376#32))) d)))

/-- The padding value (never read below). -/
def padZ : (⟨S_, .f32⟩ : BufTy).Contents (Elt Ideal) := (sitofp .f32 (constantI S_ 32 0#32) : FVec Ideal S_ .f32)

/-- A [V, 3] array laid along the lanes: transposed, padded to 196608 lanes. -/
def padT (y : Pos) : Lanes3 :=
  pad S3x196608 ![0, 0] ![0, 11232] ![0, 0] (transpose S3x185376 [1, 0] y transposes_S185376x3_S3x185376_1_0) padZ pads_S3x185376_S3x196608_000_0112320 h_S_

/-- A per-vertex vector laid along the lanes as one row, padded to 196608 lanes. -/
def padD (g : PerV) : Lanes1 :=
  pad S1x196608 ![0, 0] ![0, 11232] ![0, 0] (shapeCast S1x185376 g shapeCasts_S185376_S1x185376) padZ pads_S1x185376_S1x196608_000_0112320 h_S_

/-- A lane array cut back to the V vertices and transposed to [V, 3]. -/
def unlane (y : Lanes3) : Pos :=
  transpose S185376x3 [1, 0] (extractStridedSlice S3x185376 ![0, 0] y slices_S3x196608_S3x185376_0_0) transposes_S3x185376_S185376x3_1_0

/-- One pass as the program carries it out. -/
def pass (x n : Pos) (g : PerV) : Pos := unlane (laneUpd (padT x) (padT n) (padD g))

/-- One pass at vertex `v`, coordinate `ch`. -/
theorem pass_apply (x n : Pos) (g : PerV) (v : Fin 185376) (ch : Fin 3) :
    pass x n g (ix2 v ch) = upd (x (ix2 v ch)) (n (ix2 v ch)) (g (ix1 v)) := by
  unfold pass unlane padT padD
  exact step_apply x n g padZ padZ padZ _ _ _ _ _ _ _ v ch

/-! ## The padding and the one-row casts, free of transport

A pad call's two operations and a reshape are stated at the type of the tensor value, moved to the buffer's own type
along an equation that holds by computation. Read at any valuation `F` they are the plain operation of what `F`
holds in the operand buffers. -/

section Transportless
variable (F : Valuation τ sig (Elt Ideal))
theorem pad_v28 :
    (StableHlo.TRef.binary (.of main_v25 : StableHlo.TRef sig ⟨S3x185376, .f32⟩) (.of main_call0_v0 : StableHlo.TRef sig ⟨S_, .f32⟩)
      (.of main_v28 : StableHlo.TRef sig ⟨S3x196608, .f32⟩)
      (fun x v => pad S3x196608 ![0, 0] ![0, 11232] ![0, 0] x v pads_S3x185376_S3x196608_000_0112320 h_S_)).result F (no_index (Proc.devRef .tc main_v28))
    = pad S3x196608 ![0, 0] ![0, 11232] ![0, 0] (F (Proc.devRef .tc main_v25)) (F (Proc.devRef .tc main_call0_v0)) pads_S3x185376_S3x196608_000_0112320 h_S_ := by
  rw [binary_result]; rfl
theorem pad_v29 :
    (StableHlo.TRef.binary (.of main_v26 : StableHlo.TRef sig ⟨S3x185376, .f32⟩) (.of main_call1_v0 : StableHlo.TRef sig ⟨S_, .f32⟩)
      (.of main_v29 : StableHlo.TRef sig ⟨S3x196608, .f32⟩)
      (fun x v => pad S3x196608 ![0, 0] ![0, 11232] ![0, 0] x v pads_S3x185376_S3x196608_000_0112320 h_S_)).result F (no_index (Proc.devRef .tc main_v29))
    = pad S3x196608 ![0, 0] ![0, 11232] ![0, 0] (F (Proc.devRef .tc main_v26)) (F (Proc.devRef .tc main_call1_v0)) pads_S3x185376_S3x196608_000_0112320 h_S_ := by
  rw [binary_result]; rfl
theorem pad_v30 :
    (StableHlo.TRef.binary (.of main_v27 : StableHlo.TRef sig ⟨S1x185376, .f32⟩) (.of main_call2_v0 : StableHlo.TRef sig ⟨S_, .f32⟩)
      (.of main_v30 : StableHlo.TRef sig ⟨S1x196608, .f32⟩)
      (fun x v => pad S1x196608 ![0, 0] ![0, 11232] ![0, 0] x v pads_S1x185376_S1x196608_000_0112320 h_S_)).result F (no_index (Proc.devRef .tc main_v30))
    = pad S1x196608 ![0, 0] ![0, 11232] ![0, 0] (F (Proc.devRef .tc main_v27)) (F (Proc.devRef .tc main_call2_v0)) pads_S1x185376_S1x196608_000_0112320 h_S_ := by
  rw [binary_result]; rfl
theorem pad_v47 :
    (StableHlo.TRef.binary (.of main_v44 : StableHlo.TRef sig ⟨S3x185376, .f32⟩) (.of main_call3_v0 : StableHlo.TRef sig ⟨S_, .f32⟩)
      (.of main_v47 : StableHlo.TRef sig ⟨S3x196608, .f32⟩)
      (fun x v => pad S3x196608 ![0, 0] ![0, 11232] ![0, 0] x v pads_S3x185376_S3x196608_000_0112320 h_S_)).result F (no_index (Proc.devRef .tc main_v47))
    = pad S3x196608 ![0, 0] ![0, 11232] ![0, 0] (F (Proc.devRef .tc main_v44)) (F (Proc.devRef .tc main_call3_v0)) pads_S3x185376_S3x196608_000_0112320 h_S_ := by
  rw [binary_result]; rfl
theorem pad_v48 :
    (StableHlo.TRef.binary (.of main_v45 : StableHlo.TRef sig ⟨S3x185376, .f32⟩) (.of main_call4_v0 : StableHlo.TRef sig ⟨S_, .f32⟩)
      (.of main_v48 : StableHlo.TRef sig ⟨S3x196608, .f32⟩)
      (fun x v => pad S3x196608 ![0, 0] ![0, 11232] ![0, 0] x v pads_S3x185376_S3x196608_000_0112320 h_S_)).result F (no_index (Proc.devRef .tc main_v48))
    = pad S3x196608 ![0, 0] ![0, 11232] ![0, 0] (F (Proc.devRef .tc main_v45)) (F (Proc.devRef .tc main_call4_v0)) pads_S3x185376_S3x196608_000_0112320 h_S_ := by
  rw [binary_result]; rfl
theorem pad_v49 :
    (StableHlo.TRef.binary (.of main_v46 : StableHlo.TRef sig ⟨S1x185376, .f32⟩) (.of main_call5_v0 : StableHlo.TRef sig ⟨S_, .f32⟩)
      (.of main_v49 : StableHlo.TRef sig ⟨S1x196608, .f32⟩)
      (fun x v => pad S1x196608 ![0, 0] ![0, 11232] ![0, 0] x v pads_S1x185376_S1x196608_000_0112320 h_S_)).result F (no_index (Proc.devRef .tc main_v49))
    = pad S1x196608 ![0, 0] ![0, 11232] ![0, 0] (F (Proc.devRef .tc main_v46)) (F (Proc.devRef .tc main_call5_v0)) pads_S1x185376_S1x196608_000_0112320 h_S_ := by
  rw [binary_result]; rfl
theorem row_v27 :
    (StableHlo.reshape main_v14 main_v27 rfl shapeCasts_S185376_S1x185376).result F (no_index (Proc.devRef .tc main_v27))
    = shapeCast S1x185376 (F (Proc.devRef .tc main_v14)) shapeCasts_S185376_S1x185376 := by
  rw [reshape_result]; rfl
theorem row_v46 :
    (StableHlo.reshape main_v14 main_v46 rfl shapeCasts_S185376_S1x185376).result F (no_index (Proc.devRef .tc main_v46))
    = shapeCast S1x185376 (F (Proc.devRef .tc main_v14)) shapeCasts_S185376_S1x185376 := by
  rw [reshape_result]; rfl

end Transportless

/-- Reads a buffer back through a line of host operations: the pad calls and the one-row casts by the lemmas above,
    every other operation by the library's. -/
macro "read_back" : tactic =>
  `(tactic| simp (disch := decide) only [after_cons, after_nil,
      ↓pad_v28, ↓pad_v29, ↓pad_v30, ↓pad_v47, ↓pad_v48, ↓pad_v49, ↓row_v27, ↓row_v46,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'])

variable (V : Valuation τ sig (Elt Ideal))

/-! ## Before the first pass -/

/-- The buffers after the six stretches that precede the first pass. -/
abbrev before1 : Valuation τ sig (Elt Ideal) :=
  after hostOps0_5 (after hostOps0_4 (after hostOps0_3 (after hostOps0_2 (after hostOps0_1 (after hostOps0 V)))))

/-- The input positions, as a [V, 3] array. -/
abbrev pos0 : Pos := shapeCast S185376x3 (V (Proc.devRef .tc main_arg0)) shapeCasts_S1x185376x3_S185376x3

theorem before1_src : before1 V (Proc.devRef .tc main_v5) = src (V (Proc.devRef .tc main_arg1)) := by
  dsimp only [before1]; after_results; rfl
theorem before1_dst : before1 V (Proc.devRef .tc main_v10) = dst (V (Proc.devRef .tc main_arg1)) := by
  dsimp only [before1]; after_results; rfl
theorem before1_deg : before1 V (Proc.devRef .tc main_v14) = deg (V (Proc.devRef .tc main_arg1)) := by
  dsimp only [before1]; after_results; rfl
theorem before1_x : before1 V (Proc.devRef .tc main_v28) = padT (pos0 V) := by
  dsimp only [before1]; read_back; rfl
theorem before1_pos : before1 V (Proc.devRef .tc main_v0) = pos0 V := by
  dsimp only [before1]; after_results; rfl
set_option maxHeartbeats 400000 in
/-- The neighbour sums before the first pass, from the positions, sources and destinations in the same buffers. -/
theorem before1_nbr : before1 V (Proc.devRef .tc main_v24)
    = nbr (before1 V (Proc.devRef .tc main_v0)) (before1 V (Proc.devRef .tc main_v5)) (before1 V (Proc.devRef .tc main_v10)) := by
  dsimp only [before1]; unfold nbr; after_results_simp
set_option maxHeartbeats 400000 in
/-- The first pass's neighbour-sum operand is those sums laid along the lanes. -/
theorem before1_n_rel : before1 V (Proc.devRef .tc main_v29) = padT (before1 V (Proc.devRef .tc main_v24)) := by
  dsimp only [before1]; read_back; rfl
theorem before1_n : before1 V (Proc.devRef .tc main_v29)
    = padT (nbr (pos0 V) (src (V (Proc.devRef .tc main_arg1))) (dst (V (Proc.devRef .tc main_arg1)))) := by
  rw [before1_n_rel, before1_nbr, before1_pos, before1_src, before1_dst]
set_option maxHeartbeats 400000 in
/-- The first pass's degree operand is the degrees laid along the lanes. -/
theorem before1_g_rel : before1 V (Proc.devRef .tc main_v30) = padD (before1 V (Proc.devRef .tc main_v14)) := by
  dsimp only [before1]; read_back; rfl
theorem before1_g : before1 V (Proc.devRef .tc main_v30) = padD (deg (V (Proc.devRef .tc main_arg1))) := by
  rw [before1_g_rel, before1_deg]

/-! ## Between the passes -/

/-- The buffers after the six stretches between the passes. -/
abbrev before2 : Valuation τ sig (Elt Ideal) :=
  after hostOps1_5 (after hostOps1_4 (after hostOps1_3 (after hostOps1_2 (after hostOps1_1 (after hostOps1 V)))))

theorem before2_x : before2 V (Proc.devRef .tc main_v47) = padT (unlane (V (Proc.devRef .tc main_v31))) := by
  dsimp only [before2]; read_back; rfl
theorem before2_pos : before2 V (Proc.devRef .tc main_v33) = unlane (V (Proc.devRef .tc main_v31)) := by
  dsimp only [before2]; after_results; rfl
theorem before2_src : before2 V (Proc.devRef .tc main_v5) = V (Proc.devRef .tc main_v5) := by
  dsimp only [before2]; after_results
theorem before2_dst : before2 V (Proc.devRef .tc main_v10) = V (Proc.devRef .tc main_v10) := by
  dsimp only [before2]; after_results
set_option maxHeartbeats 400000 in
/-- The neighbour sums before the second pass, from the positions, sources and destinations in the same buffers. -/
theorem before2_nbr : before2 V (Proc.devRef .tc main_v43)
    = nbr (before2 V (Proc.devRef .tc main_v33)) (before2 V (Proc.devRef .tc main_v5)) (before2 V (Proc.devRef .tc main_v10)) := by
  dsimp only [before2]; unfold nbr; after_results_simp
set_option maxHeartbeats 400000 in
/-- The second pass's neighbour-sum operand is those sums laid along the lanes. -/
theorem before2_n_rel : before2 V (Proc.devRef .tc main_v48) = padT (before2 V (Proc.devRef .tc main_v43)) := by
  dsimp only [before2]; read_back; rfl
theorem before2_n : before2 V (Proc.devRef .tc main_v48)
    = padT (nbr (unlane (V (Proc.devRef .tc main_v31))) (V (Proc.devRef .tc main_v5)) (V (Proc.devRef .tc main_v10))) := by
  rw [before2_n_rel, before2_nbr, before2_pos, before2_src, before2_dst]
theorem before2_g : before2 V (Proc.devRef .tc main_v49) = padD (V (Proc.devRef .tc main_v14)) := by
  dsimp only [before2]; read_back; rfl

/-! ## After the second pass -/

theorem tail_x : after hostOps2 V (Proc.devRef .tc main_v52) = unlane (V (Proc.devRef .tc main_v50)) := by
  after_results; rfl
theorem tail_faces : after hostOps2 V (Proc.devRef .tc main_v53)
    = shapeCast S370748x3 (V (Proc.devRef .tc main_arg2)) shapeCasts_S1x370748x3_S370748x3 := by
  after_results; rfl
theorem tail_arg2 : after hostOps2 V (Proc.devRef .tc main_arg2) = V (Proc.devRef .tc main_arg2) := by
  after_results

end Cert.KernelIdeal.HostSide

end
-- ==== Proof.Region0Value.lean ====
/-
  What the first update pass leaves in its output array.

  The pass runs over a grid of 12 points; point t works on lanes 16384 t … 16384 t + 16383 of the three padded
  operand arrays (positions [3, 196608], neighbour sums [3, 196608], degrees [1, 196608]) and writes the same lanes
  of the output. The body updates every lane of its block from that lane of the operand blocks, the single degree
  row shared by the three coordinate rows, so the block point t writes back is the block of ONE whole-array
  function, `laneUpd` of the operand arrays as the pass finds them; the twelve blocks tile the 196608 lanes, so
  after the pass the output array is that function everywhere.
-/
import proofs.«134193_j9912784519488_1_alg».proof.Proof.Gen.KernelIdeal.Frame
import proofs.«134193_j9912784519488_1_alg».proof.Proof.LapSpec
import Idealize.ShloMosaic.Lib.Pipeline.Value

set_option maxRecDepth 16384

noncomputable section

namespace Cert.KernelIdeal.Pass0

open Cert.KernelIdeal Cert.KernelIdeal.Gen Cert.LapSmooth
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value at row `r`, lane `l` of the block: the update of that lane, the degree read from the
    one row of the degree block. -/
theorem pay_apply (x0 x1 : Vec Ideal S3x16384 .f32) (x2 : Vec Ideal S1x16384 .f32) (r : Fin 3) (l : Fin 16384) :
    k0_pay1 x0 x1 x2 (ix2 r l) = upd (x0 (ix2 r l)) (x1 (ix2 r l)) (x2 (ix2 (0 : Fin 1) l)) := by
  unfold k0_pay1
  simp only [addf_apply, mulf_apply, subf_apply, divf_apply, maximumf_apply, broadcast_apply, shapeCast_self,
    broadcastTo_1b_ab_apply]
  rfl

theorem pay_apply' (x0 x1 : Vec Ideal S3x16384 .f32) (x2 : Vec Ideal S1x16384 .f32) (j : S3x16384.Idx) :
    k0_pay1 x0 x1 x2 j = upd (x0 j) (x1 j) (x2 (ix2 (0 : Fin 1) (j 1))) := by
  exact (congrArg (k0_pay1 x0 x1 x2) (eq_ix2 j)).trans ((pay_apply x0 x1 x2 (j 0) (j 1)).trans
    (congrArg (fun i => upd (x0 i) (x1 i) (x2 (ix2 (0 : Fin 1) (j 1)))) (eq_ix2 j)).symm)

/-- The index maps over the grid: the three operand windows move with the output window, which sits on row block 0
    and on lane block `t` at point `t`. -/
theorem idx_facts : ∀ t : Fin cfg0.N, win0_0.index t (0 : Fin 2) = win0_3.index t (0 : Fin 2)
    ∧ win0_0.index t (1 : Fin 2) = win0_3.index t (1 : Fin 2)
    ∧ win0_1.index t (0 : Fin 2) = win0_3.index t (0 : Fin 2)
    ∧ win0_1.index t (1 : Fin 2) = win0_3.index t (1 : Fin 2)
    ∧ win0_2.index t (0 : Fin 2) = 0
    ∧ win0_2.index t (1 : Fin 2) = win0_3.index t (1 : Fin 2)
    ∧ win0_3.index t (0 : Fin 2) = 0 :=
  (by decide +kernel : ∀ t : Fin grid0.N, _)

/-- Every lane block is some point's. -/
theorem idx_onto : ∀ q : Fin 12, ∃ t : Fin cfg0.N, win0_3.index t = ![0, q.val] :=
  (by decide +kernel : ∀ q : Fin 12, ∃ t : Fin grid0.N, win0_3.index t = ![0, q.val])

/-- What point `t` writes back is block `t` of `laneUpd` of the operand arrays as the pass finds them. -/
theorem flushed_eq (c : Dev nD) (t : Fin cfg0.N) :
    (dat0 V c).flushed 3 t = ((cfg0.win 3).blk t).view.read (Elt Ideal)
      (laneUpd (V c main_v28) (V c main_v29) (V c main_v30)) := by
  show (cfg0.win 3).cut (grid0.coords t) ((dat0 V c).after 3 t) = _
  rw [after0_3]
  unfold out0_3
  rw [View.canon_unit_zero hz]
  simp only [View.ld_unit_zero (S := S3x16384) hz, View.ld_unit_zero (S := S1x16384) hz]
  obtain ⟨e0, e1, e2, e3, e4, e5, e6⟩ := idx_facts t
  funext j
  show k0_pay1 (iblk0 V c 0 t) (iblk0 V c 1 t) (iblk0 V c 2 t) j = _
  refine (pay_apply' (iblk0 V c 0 t) (iblk0 V c 1 t) (iblk0 V c 2 t) j).trans ?_
  show upd (V c main_v28 (((cfg0.win 0).blk t).view.emb j)) (V c main_v29 (((cfg0.win 1).blk t).view.emb j))
      (V c main_v30 (((cfg0.win 2).blk t).view.emb (ix2 (0 : Fin 1) (j 1))))
    = upd (V c main_v28 (((cfg0.win 3).blk t).view.emb j)) (V c main_v29 (((cfg0.win 3).blk t).view.emb j))
      (V c main_v30 (ix2 (0 : Fin 1) ((((cfg0.win 3).blk t).view.emb j) 1)))
  have h0 : ((cfg0.win 0).blk t).view.emb j = ((cfg0.win 3).blk t).view.emb j := by
    funext a; apply Fin.ext
    match a with
    | ⟨0, _⟩ => show win0_0.index t (0 : Fin 2) * 3 + 1 * (j 0).val = win0_3.index t (0 : Fin 2) * 3 + 1 * (j 0).val; omega
    | ⟨1, _⟩ => show win0_0.index t (1 : Fin 2) * 16384 + 1 * (j 1).val = win0_3.index t (1 : Fin 2) * 16384 + 1 * (j 1).val; omega
  have h1 : ((cfg0.win 1).blk t).view.emb j = ((cfg0.win 3).blk t).view.emb j := by
    funext a; apply Fin.ext
    match a with
    | ⟨0, _⟩ => show win0_1.index t (0 : Fin 2) * 3 + 1 * (j 0).val = win0_3.index t (0 : Fin 2) * 3 + 1 * (j 0).val; omega
    | ⟨1, _⟩ => show win0_1.index t (1 : Fin 2) * 16384 + 1 * (j 1).val = win0_3.index t (1 : Fin 2) * 16384 + 1 * (j 1).val; omega
  have h2 : ((cfg0.win 2).blk t).view.emb (ix2 (0 : Fin 1) (j 1)) = ix2 (0 : Fin 1) ((((cfg0.win 3).blk t).view.emb j) 1) := by
    funext a; apply Fin.ext
    match a with
    | ⟨0, _⟩ => show win0_2.index t (0 : Fin 2) * 1 + 1 * 0 = 0; omega
    | ⟨1, _⟩ => show win0_2.index t (1 : Fin 2) * 16384 + 1 * (j 1).val = win0_3.index t (1 : Fin 2) * 16384 + 1 * (j 1).val; omega
  rw [h0, h1, h2]
  rfl

/-- An index of the output array is in point `t`'s block iff each coordinate is in the block's range. -/
theorem mem_blk (t : Fin cfg0.N) (i : S3x196608.Idx) :
    i ∈ ((cfg0.win 3).blk t).view.set ↔ ∀ a : Fin 2, win0_3.index t a * S3x16384.size a ≤ (i a).val ∧ (i a).val < win0_3.index t a * S3x16384.size a + S3x16384.size a := by
  show i ∈ ((View.whole main_v31).slice (win0_3.rect t)).set ↔ _
  rw [View.set_slice_whole, Rect.mem_set_unit]
  exact Iff.rfl

/-- The twelve blocks cover the output array: lane `l` lies in the block of point `l / 16384`. -/
theorem cover (i : S3x196608.Idx) :
    ∃ t : Fin cfg0.N, (cfg0.win 3).flush t = true ∧ i ∈ ((cfg0.win 3).blk t).view.set := by
  have hi0 : (i 0).val < 3 := (i 0).isLt
  have hi1 : (i 1).val < 196608 := (i 1).isLt
  obtain ⟨t, ht⟩ := idx_onto ⟨(i 1).val / 16384, by omega⟩
  have q0 : win0_3.index t (0 : Fin 2) = 0 := congrFun ht 0
  have q1 : win0_3.index t (1 : Fin 2) = (i 1).val / 16384 := congrFun ht 1
  refine ⟨t, flush0_3 t, ?_⟩
  rw [mem_blk]
  intro a
  match a with
  | ⟨0, _⟩ => show win0_3.index t (0 : Fin 2) * 3 ≤ (i 0).val ∧ (i 0).val < win0_3.index t (0 : Fin 2) * 3 + 3; omega
  | ⟨1, _⟩ => show win0_3.index t (1 : Fin 2) * 16384 ≤ (i 1).val ∧ (i 1).val < win0_3.index t (1 : Fin 2) * 16384 + 16384; omega

/-- After the pass the output array is `laneUpd` of the operand arrays as the pass found them. -/
theorem final (c : Dev nD) :
    (dat0 V c).arrAt 3 cfg0.N = laneUpd (V c main_v28) (V c main_v29) (V c main_v30) :=
  (dat0 V c).arrAt_eq_of_cover 3 _ (fun t _ => flushed_eq V c t) cover

end Cert.KernelIdeal.Pass0

end
-- ==== Proof.Region1Value.lean ====
/-
  What the second update pass leaves in its output array.

  The pass runs over a grid of 12 points; point t works on lanes 16384 t … 16384 t + 16383 of the three padded
  operand arrays (positions [3, 196608], neighbour sums [3, 196608], degrees [1, 196608]) and writes the same lanes
  of the output. The body updates every lane of its block from that lane of the operand blocks, the single degree
  row shared by the three coordinate rows, so the block point t writes back is the block of ONE whole-array
  function, `laneUpd` of the operand arrays as the pass finds them; the twelve blocks tile the 196608 lanes, so
  after the pass the output array is that function everywhere.
-/
import proofs.«134193_j9912784519488_1_alg».proof.Proof.Gen.KernelIdeal.Frame
import proofs.«134193_j9912784519488_1_alg».proof.Proof.LapSpec
import Idealize.ShloMosaic.Lib.Pipeline.Value

set_option maxRecDepth 16384

noncomputable section

namespace Cert.KernelIdeal.Pass1

open Cert.KernelIdeal Cert.KernelIdeal.Gen Cert.LapSmooth
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value at row `r`, lane `l` of the block: the update of that lane, the degree read from the
    one row of the degree block. -/
theorem pay_apply (x0 x1 : Vec Ideal S3x16384 .f32) (x2 : Vec Ideal S1x16384 .f32) (r : Fin 3) (l : Fin 16384) :
    k1_pay1 x0 x1 x2 (ix2 r l) = upd (x0 (ix2 r l)) (x1 (ix2 r l)) (x2 (ix2 (0 : Fin 1) l)) := by
  unfold k1_pay1
  simp only [addf_apply, mulf_apply, subf_apply, divf_apply, maximumf_apply, broadcast_apply, shapeCast_self,
    broadcastTo_1b_ab_apply]
  rfl

theorem pay_apply' (x0 x1 : Vec Ideal S3x16384 .f32) (x2 : Vec Ideal S1x16384 .f32) (j : S3x16384.Idx) :
    k1_pay1 x0 x1 x2 j = upd (x0 j) (x1 j) (x2 (ix2 (0 : Fin 1) (j 1))) := by
  exact (congrArg (k1_pay1 x0 x1 x2) (eq_ix2 j)).trans ((pay_apply x0 x1 x2 (j 0) (j 1)).trans
    (congrArg (fun i => upd (x0 i) (x1 i) (x2 (ix2 (0 : Fin 1) (j 1)))) (eq_ix2 j)).symm)

/-- The index maps over the grid: the three operand windows move with the output window, which sits on row block 0
    and on lane block `t` at point `t`. -/
theorem idx_facts : ∀ t : Fin cfg1.N, win1_0.index t (0 : Fin 2) = win1_3.index t (0 : Fin 2)
    ∧ win1_0.index t (1 : Fin 2) = win1_3.index t (1 : Fin 2)
    ∧ win1_1.index t (0 : Fin 2) = win1_3.index t (0 : Fin 2)
    ∧ win1_1.index t (1 : Fin 2) = win1_3.index t (1 : Fin 2)
    ∧ win1_2.index t (0 : Fin 2) = 0
    ∧ win1_2.index t (1 : Fin 2) = win1_3.index t (1 : Fin 2)
    ∧ win1_3.index t (0 : Fin 2) = 0 :=
  (by decide +kernel : ∀ t : Fin grid1.N, _)

/-- Every lane block is some point's. -/
theorem idx_onto : ∀ q : Fin 12, ∃ t : Fin cfg1.N, win1_3.index t = ![0, q.val] :=
  (by decide +kernel : ∀ q : Fin 12, ∃ t : Fin grid1.N, win1_3.index t = ![0, q.val])

/-- What point `t` writes back is block `t` of `laneUpd` of the operand arrays as the pass finds them. -/
theorem flushed_eq (c : Dev nD) (t : Fin cfg1.N) :
    (dat1 V c).flushed 3 t = ((cfg1.win 3).blk t).view.read (Elt Ideal)
      (laneUpd (V c main_v47) (V c main_v48) (V c main_v49)) := by
  show (cfg1.win 3).cut (grid1.coords t) ((dat1 V c).after 3 t) = _
  rw [after1_3]
  unfold out1_3
  rw [View.canon_unit_zero hz]
  simp only [View.ld_unit_zero (S := S3x16384) hz, View.ld_unit_zero (S := S1x16384) hz]
  obtain ⟨e0, e1, e2, e3, e4, e5, e6⟩ := idx_facts t
  funext j
  show k1_pay1 (iblk1 V c 0 t) (iblk1 V c 1 t) (iblk1 V c 2 t) j = _
  refine (pay_apply' (iblk1 V c 0 t) (iblk1 V c 1 t) (iblk1 V c 2 t) j).trans ?_
  show upd (V c main_v47 (((cfg1.win 0).blk t).view.emb j)) (V c main_v48 (((cfg1.win 1).blk t).view.emb j))
      (V c main_v49 (((cfg1.win 2).blk t).view.emb (ix2 (0 : Fin 1) (j 1))))
    = upd (V c main_v47 (((cfg1.win 3).blk t).view.emb j)) (V c main_v48 (((cfg1.win 3).blk t).view.emb j))
      (V c main_v49 (ix2 (0 : Fin 1) ((((cfg1.win 3).blk t).view.emb j) 1)))
  have h0 : ((cfg1.win 0).blk t).view.emb j = ((cfg1.win 3).blk t).view.emb j := by
    funext a; apply Fin.ext
    match a with
    | ⟨0, _⟩ => show win1_0.index t (0 : Fin 2) * 3 + 1 * (j 0).val = win1_3.index t (0 : Fin 2) * 3 + 1 * (j 0).val; omega
    | ⟨1, _⟩ => show win1_0.index t (1 : Fin 2) * 16384 + 1 * (j 1).val = win1_3.index t (1 : Fin 2) * 16384 + 1 * (j 1).val; omega
  have h1 : ((cfg1.win 1).blk t).view.emb j = ((cfg1.win 3).blk t).view.emb j := by
    funext a; apply Fin.ext
    match a with
    | ⟨0, _⟩ => show win1_1.index t (0 : Fin 2) * 3 + 1 * (j 0).val = win1_3.index t (0 : Fin 2) * 3 + 1 * (j 0).val; omega
    | ⟨1, _⟩ => show win1_1.index t (1 : Fin 2) * 16384 + 1 * (j 1).val = win1_3.index t (1 : Fin 2) * 16384 + 1 * (j 1).val; omega
  have h2 : ((cfg1.win 2).blk t).view.emb (ix2 (0 : Fin 1) (j 1)) = ix2 (0 : Fin 1) ((((cfg1.win 3).blk t).view.emb j) 1) := by
    funext a; apply Fin.ext
    match a with
    | ⟨0, _⟩ => show win1_2.index t (0 : Fin 2) * 1 + 1 * 0 = 0; omega
    | ⟨1, _⟩ => show win1_2.index t (1 : Fin 2) * 16384 + 1 * (j 1).val = win1_3.index t (1 : Fin 2) * 16384 + 1 * (j 1).val; omega
  rw [h0, h1, h2]
  rfl

/-- An index of the output array is in point `t`'s block iff each coordinate is in the block's range. -/
theorem mem_blk (t : Fin cfg1.N) (i : S3x196608.Idx) :
    i ∈ ((cfg1.win 3).blk t).view.set ↔ ∀ a : Fin 2, win1_3.index t a * S3x16384.size a ≤ (i a).val ∧ (i a).val < win1_3.index t a * S3x16384.size a + S3x16384.size a := by
  show i ∈ ((View.whole main_v50).slice (win1_3.rect t)).set ↔ _
  rw [View.set_slice_whole, Rect.mem_set_unit]
  exact Iff.rfl

/-- The twelve blocks cover the output array: lane `l` lies in the block of point `l / 16384`. -/
theorem cover (i : S3x196608.Idx) :
    ∃ t : Fin cfg1.N, (cfg1.win 3).flush t = true ∧ i ∈ ((cfg1.win 3).blk t).view.set := by
  have hi0 : (i 0).val < 3 := (i 0).isLt
  have hi1 : (i 1).val < 196608 := (i 1).isLt
  obtain ⟨t, ht⟩ := idx_onto ⟨(i 1).val / 16384, by omega⟩
  have q0 : win1_3.index t (0 : Fin 2) = 0 := congrFun ht 0
  have q1 : win1_3.index t (1 : Fin 2) = (i 1).val / 16384 := congrFun ht 1
  refine ⟨t, flush1_3 t, ?_⟩
  rw [mem_blk]
  intro a
  match a with
  | ⟨0, _⟩ => show win1_3.index t (0 : Fin 2) * 3 ≤ (i 0).val ∧ (i 0).val < win1_3.index t (0 : Fin 2) * 3 + 3; omega
  | ⟨1, _⟩ => show win1_3.index t (1 : Fin 2) * 16384 ≤ (i 1).val ∧ (i 1).val < win1_3.index t (1 : Fin 2) * 16384 + 16384; omega

/-- After the pass the output array is `laneUpd` of the operand arrays as the pass found them. -/
theorem final (c : Dev nD) :
    (dat1 V c).arrAt 3 cfg1.N = laneUpd (V c main_v47) (V c main_v48) (V c main_v49) :=
  (dat1 V c).arrAt_eq_of_cover 3 _ (fun t _ => flushed_eq V c t) cover

end Cert.KernelIdeal.Pass1

end
-- ==== Proof.KernelValue.lean ====
/-
  What the smoothing program's two result buffers hold after the run, as functions of its argument arrays.

  The positions after two passes: with x0 the input positions as a [V, 3] array, and src, dst, deg built from the
  edge list, x1 = pass x0 (nbr x0) deg and x2 = pass x1 (nbr x1) deg. The fold of the program's segments over the
  launch memory is read back from the end: the last stretch cuts and transposes the second pass's output array; that
  array is `laneUpd` of the pass's three operand arrays as it found them; those were laid out by the stretch between
  the passes from the first pass's output array and from src, dst, deg, which the first pass left alone; and so on
  to the launch memory. The faces result is the faces argument with its leading unit axis dropped.
-/
import proofs.«134193_j9912784519488_1_alg».proof.Proof.Gen.KernelIdeal.Frame
import proofs.«134193_j9912784519488_1_alg».proof.Proof.HostStretch
import proofs.«134193_j9912784519488_1_alg».proof.Proof.Region0Value
import proofs.«134193_j9912784519488_1_alg».proof.Proof.Region1Value

set_option maxRecDepth 16384

noncomputable section

namespace Cert.KernelIdeal.Result

open Cert.KernelIdeal Cert.KernelIdeal.Gen Cert.KernelIdeal.HostSide Cert.LapSmooth
open Idealize.ShloMosaic Idealize.ShloMosaic.TcCoe Idealize.ShloMosaic.StableHlo Idealize.SL.Sem

/-- The input positions as a [V, 3] array. -/
def x0K (a0 : (⟨S1x185376x3, .f32⟩ : BufTy).Contents (Elt Ideal)) : Pos :=
  shapeCast S185376x3 a0 shapeCasts_S1x185376x3_S185376x3

/-- The positions after the first pass. -/
def x1K (a0 : (⟨S1x185376x3, .f32⟩ : BufTy).Contents (Elt Ideal)) (a1 : Edges) : Pos :=
  pass (x0K a0) (nbr (x0K a0) (src a1) (dst a1)) (deg a1)

/-- The positions after the second pass. -/
def x2K (a0 : (⟨S1x185376x3, .f32⟩ : BufTy).Contents (Elt Ideal)) (a1 : Edges) : Pos :=
  pass (x1K a0 a1) (nbr (x1K a0 a1) (src a1) (dst a1)) (deg a1)

/-- The faces argument with its leading unit axis dropped. -/
def facesK (a2 : (⟨S1x370748x3, .i32⟩ : BufTy).Contents (Elt Ideal)) : (⟨S370748x3, .i32⟩ : BufTy).Contents (Elt Ideal) :=
  shapeCast S370748x3 a2 shapeCasts_S1x370748x3_S370748x3

variable (m : (ℓ : Loc nD τ sig) → Buf (Elt Ideal) ℓ) (ρ : Dev nD → PrngReg)

/-- The first pass's output array, cut back and transposed, is x1. -/
theorem first_pass (c : Dev nD) :
    unlane (W7 m ρ c (Proc.devRef .tc main_v31))
      = x1K (m ((c.tc : Thread nD τ).loc main_arg0)) (m ((c.tc : Thread nD τ).loc main_arg1)) := by
  have e7 : W7 m ρ c (Proc.devRef .tc main_v31)
      = laneUpd (V6 m ρ c main_v28) (V6 m ρ c main_v29) (V6 m ρ c main_v30) :=
    (W7_arr m ρ c 3).trans (Cert.KernelIdeal.Pass0.final (V6 m ρ) c)
  have e28 : V6 m ρ c main_v28 = padT (x0K (m ((c.tc : Thread nD τ).loc main_arg0))) := before1_x (W0 m ρ c)
  have e29 : V6 m ρ c main_v29 = padT (nbr (x0K (m ((c.tc : Thread nD τ).loc main_arg0)))
      (src (m ((c.tc : Thread nD τ).loc main_arg1))) (dst (m ((c.tc : Thread nD τ).loc main_arg1)))) := before1_n (W0 m ρ c)
  have e30 : V6 m ρ c main_v30 = padD (deg (m ((c.tc : Thread nD τ).loc main_arg1))) := before1_g (W0 m ρ c)
  rw [e7, e28, e29, e30]
  unfold x1K pass
  rfl

/-- The positions result. -/
theorem result_x (c : Dev nD) :
    W15 m ρ c (Proc.devRef .tc main_v52)
      = x2K (m ((c.tc : Thread nD τ).loc main_arg0)) (m ((c.tc : Thread nD τ).loc main_arg1)) := by
  have e5 : W7 m ρ c (Proc.devRef .tc main_v5) = src (m ((c.tc : Thread nD τ).loc main_arg1)) :=
    (W7_of_ne m ρ c main_v5 (by decide)).trans (before1_src (W0 m ρ c))
  have e10 : W7 m ρ c (Proc.devRef .tc main_v10) = dst (m ((c.tc : Thread nD τ).loc main_arg1)) :=
    (W7_of_ne m ρ c main_v10 (by decide)).trans (before1_dst (W0 m ρ c))
  have e14 : W7 m ρ c (Proc.devRef .tc main_v14) = deg (m ((c.tc : Thread nD τ).loc main_arg1)) :=
    (W7_of_ne m ρ c main_v14 (by decide)).trans (before1_deg (W0 m ρ c))
  have e47 : V13 m ρ c main_v47 = padT (x1K (m ((c.tc : Thread nD τ).loc main_arg0)) (m ((c.tc : Thread nD τ).loc main_arg1))) :=
    (before2_x (W7 m ρ c)).trans (by rw [first_pass])
  have e48 : V13 m ρ c main_v48 = padT (nbr (x1K (m ((c.tc : Thread nD τ).loc main_arg0)) (m ((c.tc : Thread nD τ).loc main_arg1)))
      (src (m ((c.tc : Thread nD τ).loc main_arg1))) (dst (m ((c.tc : Thread nD τ).loc main_arg1)))) :=
    (before2_n (W7 m ρ c)).trans (by rw [first_pass, e5, e10])
  have e49 : V13 m ρ c main_v49 = padD (deg (m ((c.tc : Thread nD τ).loc main_arg1))) :=
    (before2_g (W7 m ρ c)).trans (by rw [e14])
  have e50 : W14 m ρ c (Proc.devRef .tc main_v50)
      = laneUpd (V13 m ρ c main_v47) (V13 m ρ c main_v48) (V13 m ρ c main_v49) :=
    (W14_arr m ρ c 3).trans (Cert.KernelIdeal.Pass1.final (V13 m ρ) c)
  refine (tail_x (W14 m ρ c)).trans ?_
  rw [e50, e47, e48, e49]
  unfold x2K pass
  rfl

/-- The faces result. -/
theorem result_faces (c : Dev nD) :
    W15 m ρ c (Proc.devRef .tc main_v53) = facesK (m ((c.tc : Thread nD τ).loc main_arg2)) := by
  have e2 : W14 m ρ c (Proc.devRef .tc main_arg2) = m ((c.tc : Thread nD τ).loc main_arg2) :=
    (tail_arg2 (W14 m ρ c)).symm.trans (W15_main_arg2 m ρ c)
  refine (tail_faces (W14 m ρ c)).trans ?_
  rw [e2]
  rfl

end Cert.KernelIdeal.Result

end
-- ==== Proof.RefStep.lean ====
/-
  The reference's two smoothing passes, entry by entry.

  The reference keeps the [V, 3] layout: it spreads 1 / max deg 1 from the vertices to the three coordinates and
  updates x + 1 * (nbr * inv_deg - x) pointwise. Read at vertex v and coordinate ch, each pass is `upd` of the
  position and the neighbour sum at (v, ch) and of the degree at v: the first pass from the input positions
  (`pass1_apply`), the second from the first pass's result (`pass2_apply`).
-/
import proofs.«134193_j9912784519488_1_alg».proof.Proof.Gen.ReferenceIdeal.Read
import proofs.«134193_j9912784519488_1_alg».proof.Proof.LapSpec
import Idealize.ShloMosaic.Lib.ValueIdx

noncomputable section

namespace Cert.ReferenceIdeal.Smooth

open Cert.ReferenceIdeal Cert.ReferenceIdeal.Read Cert.LapSmooth
open Idealize.ShloMosaic Idealize.ShloMosaic.ValueIdx

/-- The inverse degree spread over the coordinates (first pass's copy), at (v, ch): 1 / max (deg v) 1. -/
theorem inv_deg1_apply (x1 : (⟨S556122x2, .i32⟩ : BufTy).Contents (Elt Ideal)) (v : Fin 185376) (ch : Fin 3) :
    val_main_v30 (F := Ideal) x1 (ix2 v ch) = Ideal.div one (max (val_main_v14 (F := Ideal) x1 (ix1 v)) one) := by
  have hi : idx_main_v29 (idx_main_v30 (ix2 v ch)) = ix1 v := funext fun a => by match a with | ⟨0, _⟩ => rfl
  rw [val_main_v30_apply, val_main_v29_apply, hi, val_main_v18_apply, val_main_v17_apply, val_main_cst_2_apply,
    val_main_v16_apply, val_main_v15_apply, val_main_cst_1_apply]
  rfl

/-- The same for the second pass's copy of the two broadcasts. -/
theorem inv_deg2_apply (x1 : (⟨S556122x2, .i32⟩ : BufTy).Contents (Elt Ideal)) (v : Fin 185376) (ch : Fin 3) :
    val_main_v47 (F := Ideal) x1 (ix2 v ch) = Ideal.div one (max (val_main_v14 (F := Ideal) x1 (ix1 v)) one) := by
  have hi : idx_main_v46 (idx_main_v47 (ix2 v ch)) = ix1 v := funext fun a => by match a with | ⟨0, _⟩ => rfl
  rw [val_main_v47_apply, val_main_v46_apply, hi, val_main_v18_apply, val_main_v17_apply, val_main_cst_2_apply,
    val_main_v16_apply, val_main_v15_apply, val_main_cst_1_apply]
  rfl

/-- The first pass at (v, ch). -/
theorem pass1_apply (x0 : (⟨S1x185376x3, .f32⟩ : BufTy).Contents (Elt Ideal)) (x1 : (⟨S556122x2, .i32⟩ : BufTy).Contents (Elt Ideal))
    (v : Fin 185376) (ch : Fin 3) :
    val_main_v35 (F := Ideal) x0 x1 (ix2 v ch)
      = upd (val_main_v10 (F := Ideal) x0 (ix2 v ch)) (val_main_v28 (F := Ideal) x0 x1 (ix2 v ch)) (val_main_v14 (F := Ideal) x1 (ix1 v)) := by
  rw [val_main_v35_apply, val_main_v34_apply, val_main_v33_apply, val_main_cst_5_apply, val_main_v32_apply, val_main_v31_apply,
    inv_deg1_apply]
  rfl

/-- The second pass at (v, ch), from the first pass's result. -/
theorem pass2_apply (x0 : (⟨S1x185376x3, .f32⟩ : BufTy).Contents (Elt Ideal)) (x1 : (⟨S556122x2, .i32⟩ : BufTy).Contents (Elt Ideal))
    (v : Fin 185376) (ch : Fin 3) :
    val_main_v52 (F := Ideal) x0 x1 (ix2 v ch)
      = upd (val_main_v35 (F := Ideal) x0 x1 (ix2 v ch)) (val_main_v45 (F := Ideal) x0 x1 (ix2 v ch)) (val_main_v14 (F := Ideal) x1 (ix1 v)) := by
  rw [val_main_v52_apply, val_main_v51_apply, val_main_v50_apply, val_main_cst_9_apply, val_main_v49_apply, val_main_v48_apply,
    inv_deg2_apply]
  rfl

end Cert.ReferenceIdeal.Smooth

end
-- ==== Proof.Bridge.lean ====
/-
  The two programs compute the same positions.

  Both build the same directed edges, degrees and neighbour sums from the edge list with the same host operations,
  and both update every entry by x + 1 * (nbr * (1 / max deg 1) - x): the kernel's program in the lane layout
  (`pass_apply`), the reference in the [V, 3] layout (`pass1_apply`, `pass2_apply`). So after the first pass the
  two position arrays agree entry by entry, hence so do the neighbour sums taken from them, and after the second
  pass the results agree. No property of the extended reals is used: the two sides are the same expression at
  every entry.
-/
import proofs.«134193_j9912784519488_1_alg».proof.Proof.KernelValue
import proofs.«134193_j9912784519488_1_alg».proof.Proof.RefStep

set_option maxRecDepth 16384

noncomputable section

namespace Cert.Bridge

open Cert.KernelIdeal.HostSide Cert.KernelIdeal.Result Cert.LapSmooth Cert.ReferenceIdeal.Read Cert.ReferenceIdeal.Smooth
open Idealize.ShloMosaic Idealize.ShloMosaic.ValueIdx

variable (a0 : (⟨Cert.KernelIdeal.S1x185376x3, .f32⟩ : BufTy).Contents (Elt Ideal)) (a1 : Edges)

/-- The same host operations in the two programs: the input positions, the sources and destinations of the directed
    edges, the degrees, the neighbour sums of any position array. -/
theorem pos_eq : x0K a0 = val_main_v10 (F := Ideal) a0 := rfl
theorem src_eq : src a1 = val_main_v4 (F := Ideal) a1 := rfl
theorem dst_eq : dst a1 = val_main_v9 (F := Ideal) a1 := rfl
theorem deg_eq : deg a1 = val_main_v14 (F := Ideal) a1 := by
  rw [deg, src_eq, val_main_v14, val_main_v13, val_main_v12, val_main_v11, val_main_cst, val_main_cst_0]
  rfl
theorem nbr1_eq : nbr (x0K a0) (src a1) (dst a1) = val_main_v28 (F := Ideal) a0 a1 := by
  rw [pos_eq, src_eq, dst_eq, nbr, val_main_v28, val_main_v27, val_main_v26, val_main_cst_4, val_main_v25, val_main_v24, val_main_v23,
    val_main_v22, val_main_v21, val_main_c_3, val_main_v20, val_main_v19, val_main_c]
  rfl
theorem nbr2_eq : nbr (val_main_v35 (F := Ideal) a0 a1) (src a1) (dst a1) = val_main_v45 (F := Ideal) a0 a1 := by
  rw [src_eq, dst_eq, nbr, val_main_v45, val_main_v44, val_main_v43, val_main_cst_8, val_main_v42, val_main_v41, val_main_v40,
    val_main_v39, val_main_v38, val_main_c_7, val_main_v37, val_main_v36, val_main_c_6]
  rfl

/-- After the first pass. -/
theorem x1_eq : x1K a0 a1 = val_main_v35 (F := Ideal) a0 a1 := by
  funext i
  obtain ⟨v, ch, rfl⟩ : ∃ (v : Fin 185376) (ch : Fin 3), i = ix2 v ch := ⟨i 0, i 1, eq_ix2 i⟩
  unfold x1K
  rw [pass_apply, pass1_apply, nbr1_eq, pos_eq, deg_eq]

/-- After the second pass. -/
theorem x2_eq : x2K a0 a1 = val_main_v52 (F := Ideal) a0 a1 := by
  funext i
  obtain ⟨v, ch, rfl⟩ : ∃ (v : Fin 185376) (ch : Fin 3), i = ix2 v ch := ⟨i 0, i 1, eq_ix2 i⟩
  unfold x2K
  rw [pass_apply, pass2_apply, x1_eq, nbr2_eq, deg_eq]

/-- The faces result: the same cast in both programs. -/
theorem faces_eq (a2 : (⟨Cert.KernelIdeal.S1x370748x3, .i32⟩ : BufTy).Contents (Elt Ideal)) :
    val_main_v53 (F := Ideal) a2 = facesK a2 := rfl

end Cert.Bridge

end
-- ==== Proof.lean ====
/-
  Two passes of uniform-Laplacian mesh smoothing: the Pallas program against its jnp reference.

  Both programs take vertex positions v [1, V, 3] (V = 185376), an undirected edge list [E, 2] and a face list, and
  return the positions after two passes of x <- x + 1 * (nbr * (1 / max deg 1) - x), where deg counts a vertex's
  neighbours and nbr sums their positions, together with the face list unchanged. They build the directed edges,
  the degrees and the neighbour sums with the same host operations (slices, concatenations, a gather, scatter-adds).
  The reference then updates the [V, 3] array pointwise. The kernel's program transposes to [3, V], pads the vertex
  axis to 196608 = 12 * 16384 lanes, updates 16384 lanes at each of 12 grid points in a pipelined region, cuts the
  padding off and transposes back — once per pass.

  The claim: each program runs to the end without a fault and leaves its arguments unchanged (the three frames); the
  idealized kernel is the kernel's own text read over the extended reals (no operation was rewritten, so there is
  nothing to preserve); and from memories that agree on the arguments the idealized kernel and the idealized
  reference end with equal results.

  The equality: every entry (v, ch) of a pass's result is the same expression `upd` of the position and neighbour
  sum at (v, ch) and of the degree at v in both programs (Proof/LapSpec.lean for the lane layout, Proof/RefStep.lean
  for the reference, Proof/Region0Value.lean and Region1Value.lean for what each pipelined region writes,
  Proof/HostStretch.lean and KernelValue.lean for the host operations around them, Proof/Bridge.lean for the
  comparison). The padded lanes are computed and thrown away; the precondition (finite positions) is not needed.
-/
import proofs.«134193_j9912784519488_1_alg».proof.Defs
import proofs.«134193_j9912784519488_1_alg».proof.Proof.Gen.Kernel
import proofs.«134193_j9912784519488_1_alg».proof.Proof.Gen.Kernel.Frame
import proofs.«134193_j9912784519488_1_alg».proof.Proof.Gen.KernelIdeal
import proofs.«134193_j9912784519488_1_alg».proof.Proof.Gen.KernelIdeal.Frame
import proofs.«134193_j9912784519488_1_alg».proof.Proof.Gen.ReferenceIdeal
import proofs.«134193_j9912784519488_1_alg».proof.Proof.Gen.ReferenceIdeal.Run
import proofs.«134193_j9912784519488_1_alg».proof.Proof.Gen.ReferenceIdeal.Read
import proofs.«134193_j9912784519488_1_alg».proof.Proof.Gen.Pre_finite_inputs
import proofs.«134193_j9912784519488_1_alg».proof.Proof.KernelRun
import proofs.«134193_j9912784519488_1_alg».proof.Proof.KernelValue
import proofs.«134193_j9912784519488_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The kernel's program runs and leaves its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a line of host operations: its run, with the results forgotten. -/
theorem frame_ri : Cert.frame_ReferenceIdeal := fun m ρ _ =>
  (θ_run Cert.ReferenceIdeal.defs _ _).mono (fun _ h c => (h c).2.2) (Cert.ReferenceIdeal.Value.run (F := Ideal) m ρ)

/-- No operation was rewritten by the idealization. -/
theorem preserves : Cert.preserves_Kernel_KernelIdeal := trivial

/-- From memories agreeing on the arguments both programs end with the positions after two passes and the faces. -/
theorem algebraic : Cert.algebraic_KernelIdeal_ReferenceIdeal := by
  intro m ρ m' ρ' _ hagree
  refine ⟨fun c => Cert.KernelIdeal.Result.x2K
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => Cert.KernelIdeal.Result.facesK
      (m ((c.tc : Thread Cert.KernelIdeal.nD Cert.KernelIdeal.τ).loc Cert.KernelIdeal.main_arg2)), ?_, ?_⟩
  · exact (θ_run Cert.KernelIdeal.defs _ _).mono (fun r h c =>
      ⟨(Cert.KernelIdeal.Whole.read_result m ρ h c Cert.KernelIdeal.main_v52 (by decide)).trans
          (Cert.KernelIdeal.Result.result_x m ρ c),
        (Cert.KernelIdeal.Whole.read_result m ρ h c Cert.KernelIdeal.main_v53 (by decide)).trans
          (Cert.KernelIdeal.Result.result_faces m ρ c),
        (Cert.KernelIdeal.Whole.read_result m ρ h c Cert.KernelIdeal.main_arg0 (by decide)).trans
          (Cert.KernelIdeal.Gen.W15_main_arg0 m ρ c),
        (Cert.KernelIdeal.Whole.read_result m ρ h c Cert.KernelIdeal.main_arg1 (by decide)).trans
          (Cert.KernelIdeal.Gen.W15_main_arg1 m ρ c),
        (Cert.KernelIdeal.Whole.read_result m ρ h c Cert.KernelIdeal.main_arg2 (by decide)).trans
          (Cert.KernelIdeal.Gen.W15_main_arg2 m ρ c)⟩)
      (Cert.KernelIdeal.Whole.run_all m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v52_eq, (hagree c).1, (hagree c).2.1]
      exact (Cert.Bridge.x2_eq _ _).symm
    · rw [(hagree c).2.2]
      exact Cert.Bridge.faces_eq _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
